-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x8x64 : Shape := ⟨3, ![200000, 8, 64]⟩
abbrev S200000x8 : Shape := ⟨2, ![200000, 8]⟩
abbrev S200000 : Shape := ⟨1, ![200000]⟩
abbrev S1 : Shape := ⟨1, ![1]⟩
abbrev S_ : Shape := ⟨0, ![]⟩

class Facts : Prop where
  bcast_S_S200000x8x64 : S_.BroadcastsInDim S200000x8x64 (![] : Fin 0 → Fin S200000x8x64.rank)
  reducesTo_S200000x8x64_S_d0_1_2 : S200000x8x64.ReducesTo [0, 1, 2] S_
  h_S_ : 0 < S_.numel
  bcast_S_S200000x8 : S_.BroadcastsInDim S200000x8 (![] : Fin 0 → Fin S200000x8.rank)
  reducesTo_S200000x8_S_d0_1 : S200000x8.ReducesTo [0, 1] S_
  bcast_S_S200000 : S_.BroadcastsInDim S200000 (![] : Fin 0 → Fin S200000.rank)
  reducesTo_S200000_S_d0 : S200000.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S200000 .f32) (main_arg5 : FVec F S1 .f32) (main_v13 : IVec S_ 1) (main_v16 : IVec S200000x8 1) : IVec S_ 1 :=
  let main_c_5 : IVec S_ 1 := constantI S_ 1 1#1
  let main_v17 : IVec S_ 1 := (fun x v => Host.reduce IntOp.andi x v reducesTo_S200000x8_S_d0_1 h_S_) main_v16 main_c_5
  let main_v18 : IVec S_ 1 := andi main_v13 main_v17
  let main_v19 : FVec F S200000 .f32 := Host.absf main_arg4
  let main_cst_6 : FVec F S_ .f32 := constant S_ .f32 0x7F800000#32
  let main_v20 : FVec F S200000 .f32 := broadcastInDim S200000 ![] bcast_S_S200000 main_cst_6
  let main_v21 : IVec S200000 1 := cmpf .olt main_v19 main_v20
  let main_c_7 : IVec S_ 1 := constantI S_ 1 1#1
  let main_v22 : IVec S_ 1 := (fun x v => Host.reduce IntOp.andi x v reducesTo_S200000_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S200000x8x64 .f32) (main_arg1 : FVec F S200000x8 .f32) (main_arg2 : FVec F S200000x8x64 .f32) (main_arg3 : FVec F S200000x8 .f32) (main_arg4 : FVec F S200000 .f32) (main_arg5 : FVec F S1 .f32) : IVec S_ 1 :=
  let main_v0 : FVec F S200000x8x64 .f32 := Host.absf main_arg0
  let main_cst : FVec F S_ .f32 := constant S_ .f32 0x7F800000#32
  let main_v1 : FVec F S200000x8x64 .f32 := broadcastInDim S200000x8x64 ![] bcast_S_S200000x8x64 main_cst
  let main_v2 : IVec S200000x8x64 1 := cmpf .olt main_v0 main_v1
  let main_c : IVec S_ 1 := constantI S_ 1 1#1
  let main_v3 : IVec S_ 1 := (fun x v => Host.reduce IntOp.andi x v reducesTo_S200000x8x64_S_d0_1_2 h_S_) main_v2 main_c
  let main_v4 : FVec F S200000x8 .f32 := Host.absf main_arg1
  let main_cst_0 : FVec F S_ .f32 := constant S_ .f32 0x7F800000#32
  let main_v5 : FVec F S200000x8 .f32 := broadcastInDim S200000x8 ![] bcast_S_S200000x8 main_cst_0
  let main_v6 : IVec S200000x8 1 := cmpf .olt main_v4 main_v5
  let main_c_1 : IVec S_ 1 := constantI S_ 1 1#1
  let main_v7 : IVec S_ 1 := (fun x v => Host.reduce IntOp.andi x v reducesTo_S200000x8_S_d0_1 h_S_) main_v6 main_c_1
  let main_v8 : IVec S_ 1 := andi main_v3 main_v7
  let main_v9 : FVec F S200000x8x64 .f32 := Host.absf main_arg2
  let main_cst_2 : FVec F S_ .f32 := constant S_ .f32 0x7F800000#32
  let main_v10 : FVec F S200000x8x64 .f32 := broadcastInDim S200000x8x64 ![] bcast_S_S200000x8x64 main_cst_2
  let main_v11 : IVec S200000x8x64 1 := cmpf .olt main_v9 main_v10
  let main_c_3 : IVec S_ 1 := constantI S_ 1 1#1
  let main_v12 : IVec S_ 1 := (fun x v => Host.reduce IntOp.andi x v reducesTo_S200000x8x64_S_d0_1_2 h_S_) main_v11 main_c_3
  let main_v13 : IVec S_ 1 := andi main_v8 main_v12
  let main_v14 : FVec F S200000x8 .f32 := Host.absf main_arg3
  let main_cst_4 : FVec F S_ .f32 := constant S_ .f32 0x7F800000#32
  let main_v15 : FVec F S200000x8 .f32 := broadcastInDim S200000x8 ![] bcast_S_S200000x8 main_cst_4
  let main_v16 : IVec S200000x8 1 := cmpf .olt main_v14 main_v15
  fn_part1 (F := F) main_arg4 main_arg5 main_v13 main_v16
-- ==== Kernel.lean ====
abbrev S200000x8x64 : Shape := ⟨3, ![200000, 8, 64]⟩
abbrev S200000x8 : Shape := ⟨2, ![200000, 8]⟩
abbrev S200000 : Shape := ⟨1, ![200000]⟩
abbrev S1 : Shape := ⟨1, ![1]⟩
abbrev S200000x1 : Shape := ⟨2, ![200000, 1]⟩
abbrev S1x1 : Shape := ⟨2, ![1, 1]⟩
abbrev S1000x8x64 : Shape := ⟨3, ![1000, 8, 64]⟩
abbrev S1000x8 : Shape := ⟨2, ![1000, 8]⟩
abbrev S1000x1 : Shape := ⟨2, ![1000, 1]⟩
abbrev S1000x8x1 : Shape := ⟨3, ![1000, 8, 1]⟩

abbrev nBuf : Space → Nat
  | .hbm => 9
  | .vmem => 13
  | .smem => 0
  | _ => 0

abbrev bufTy : (tb : Table) → Fin (tcTables nBuf tb) → BufTy
  | .hbm, ⟨0, _⟩ => ⟨S200000x8x64, .f32⟩
  | .hbm, ⟨1, _⟩ => ⟨S200000x8, .f32⟩
  | .hbm, ⟨2, _⟩ => ⟨S200000x8x64, .f32⟩
  | .hbm, ⟨3, _⟩ => ⟨S200000x8, .f32⟩
  | .hbm, ⟨4, _⟩ => ⟨S200000, .f32⟩
  | .hbm, ⟨5, _⟩ => ⟨S1, .f32⟩
  | .hbm, ⟨6, _⟩ => ⟨S200000x1, .f32⟩
  | .hbm, ⟨7, _⟩ => ⟨S1x1, .f32⟩
  | .hbm, ⟨8, _⟩ => ⟨S200000x8x64, .f32⟩
  | .local _ .vmem, ⟨0, _⟩ => ⟨S1000x8x64, .f32⟩
  | .local _ .vmem, ⟨1, _⟩ => ⟨S1000x8x64, .f32⟩
  | .local _ .vmem, ⟨2, _⟩ => ⟨S1000x8, .f32⟩
  | .local _ .vmem, ⟨3, _⟩ => ⟨S1000x8, .f32⟩
  | .local _ .vmem, ⟨4, _⟩ => ⟨S1000x8x64, .f32⟩
  | .local _ .vmem, ⟨5, _⟩ => ⟨S1000x8x64, .f32⟩
  | .local _ .vmem, ⟨6, _⟩ => ⟨S1000x8, .f32⟩
  | .local _ .vmem, ⟨7, _⟩ => ⟨S1000x8, .f32⟩
  | .local _ .vmem, ⟨8, _⟩ => ⟨S1000x1, .f32⟩
  | .local _ .vmem, ⟨9, _⟩ => ⟨S1000x1, .f32⟩
  | .local _ .vmem, ⟨10, _⟩ => ⟨S1x1, .f32⟩
  | .local _ .vmem, ⟨11, _⟩ => ⟨S1000x8x64, .f32⟩
  | .local _ .vmem, ⟨12, _⟩ => ⟨S1000x8x64, .f32⟩
  | _, _ => ⟨S200000x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S200000_S200000x1 : S200000.ShapeCasts S200000x1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1x1_S1000x1 : S1x1.Broadcasts S1000x1
  inb_S1000x8_S1000x8_0_0 : ∀ a, (![0, 0] : Fin 2 → Nat) a + S1000x8.size a ≤ S1000x8.size a
  h_S1000x8 : 0 < S1000x8.numel
  broadcasts_S1000x1_S1000x8 : S1000x1.Broadcasts S1000x8
  shapeCasts_S1000x8_S1000x8x1 : S1000x8.ShapeCasts S1000x8x1
  inb_S1000x8x64_S1000x8x64_0_0_0 : ∀ a, (![0, 0, 0] : Fin 3 → Nat) a + S1000x8x64.size a ≤ S1000x8x64.size a
  h_S1000x8x64 : 0 < S1000x8x64.numel
  broadcasts_S1000x8x1_S1000x8x64 : S1000x8x1.Broadcasts S1000x8x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x8x64.size a ≤ S200000x8x64.size a
  hwx0_0 : ∀ i : grid0.Coords, EltTy.bits .f32 = 32 ∨ (Rect.block (s := S200000x8x64) S1000x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x8.size a ≤ S200000x8.size a
  hwx0_1 : ∀ i : grid0.Coords, EltTy.bits .f32 = 32 ∨ (Rect.block (s := S200000x8) S1000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x8x64.size a ≤ S200000x8x64.size a
  hwx0_2 : ∀ i : grid0.Coords, EltTy.bits .f32 = 32 ∨ (Rect.block (s := S200000x8x64) S1000x8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x8.size a ≤ S200000x8.size a
  hwx0_3 : ∀ i : grid0.Coords, EltTy.bits .f32 = 32 ∨ (Rect.block (s := S200000x8) S1000x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S200000x1.size a
  hwx0_4 : ∀ i : grid0.Coords, EltTy.bits .f32 = 32 ∨ (Rect.block (s := S200000x1) S1000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x8x64.size a ≤ S200000x8x64.size a
  hwx0_6 : ∀ i : grid0.Coords, EltTy.bits .f32 = 32 ∨ (Rect.block (s := S200000x8x64) S1000x8x64.size (cc0_transform_6 i) (hinb0_6 i)).WholeWords (EltTy.packing .f32)

variable [Facts₀]

abbrev win0_0 : Pipeline.Window sig grid0 :=
  Pipeline.Window.ofSpec (Memref.whole main_arg0) S1000x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x8x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1000x8x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x8x64 : Shape := ⟨3, ![200000, 8, 64]⟩
abbrev S200000x8 : Shape := ⟨2, ![200000, 8]⟩
abbrev S200000 : Shape := ⟨1, ![200000]⟩
abbrev S1 : Shape := ⟨1, ![1]⟩
abbrev S_ : Shape := ⟨0, ![]⟩
abbrev S200000x1 : Shape := ⟨2, ![200000, 1]⟩
abbrev S200000x8x1 : Shape := ⟨3, ![200000, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S200000x8x64, .f32⟩
  | .hbm, ⟨1, _⟩ => ⟨S200000x8, .f32⟩
  | .hbm, ⟨2, _⟩ => ⟨S200000x8x64, .f32⟩
  | .hbm, ⟨3, _⟩ => ⟨S200000x8, .f32⟩
  | .hbm, ⟨4, _⟩ => ⟨S200000, .f32⟩
  | .hbm, ⟨5, _⟩ => ⟨S1, .f32⟩
  | .hbm, ⟨6, _⟩ => ⟨S200000, .f32⟩
  | .hbm, ⟨7, _⟩ => ⟨S200000, .f32⟩
  | .hbm, ⟨8, _⟩ => ⟨S_, .f32⟩
  | .hbm, ⟨9, _⟩ => ⟨S200000, .f32⟩
  | .hbm, ⟨10, _⟩ => ⟨S200000, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S200000, .f32⟩
  | .hbm, ⟨15, _⟩ => ⟨S200000, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S200000x1, .f32⟩
  | .hbm, ⟨20, _⟩ => ⟨S200000x8, .f32⟩
  | .hbm, ⟨21, _⟩ => ⟨S200000x8, .f32⟩
  | .hbm, ⟨22, _⟩ => ⟨S_, .f32⟩
  | .hbm, ⟨23, _⟩ => ⟨S200000x8, .i1⟩
  | .hbm, ⟨24, _⟩ => ⟨S_, .f32⟩
  | .hbm, ⟨25, _⟩ => ⟨S200000x8, .f32⟩
  | .hbm, ⟨26, _⟩ => ⟨S200000x8, .f32⟩
  | .hbm, ⟨27, _⟩ => ⟨S_, .f32⟩
  | .hbm, ⟨28, _⟩ => ⟨S200000x8, .f32⟩
  | .hbm, ⟨29, _⟩ => ⟨S200000x8, .i1⟩
  | .hbm, ⟨30, _⟩ => ⟨S_, .f32⟩
  | .hbm, ⟨31, _⟩ => ⟨S200000x8, .f32⟩
  | .hbm, ⟨32, _⟩ => ⟨S200000x8, .f32⟩
  | .hbm, ⟨33, _⟩ => ⟨S_, .f32⟩
  | .hbm, ⟨34, _⟩ => ⟨S200000x8, .f32⟩
  | .hbm, ⟨35, _⟩ => ⟨S200000x8, .i1⟩
  | .hbm, ⟨36, _⟩ => ⟨S_, .f32⟩
  | .hbm, ⟨37, _⟩ => ⟨S200000x8, .f32⟩
  | .hbm, ⟨38, _⟩ => ⟨S200000x8, .f32⟩
  | .hbm, ⟨39, _⟩ => ⟨S200000x8, .f32⟩
  | .hbm, ⟨40, _⟩ => ⟨S200000x8, .f32⟩
  | .hbm, ⟨41, _⟩ => ⟨S200000x8, .f32⟩
  | .hbm, ⟨42, _⟩ => ⟨S200000x8, .f32⟩
  | .hbm, ⟨43, _⟩ => ⟨S_, .f32⟩
  | .hbm, ⟨44, _⟩ => ⟨S200000x8, .i1⟩
  | .hbm, ⟨45, _⟩ => ⟨S_, .f32⟩
  | .hbm, ⟨46, _⟩ => ⟨S200000x8, .f32⟩
  | .hbm, ⟨47, _⟩ => ⟨S200000x8, .f32⟩
  | .hbm, ⟨48, _⟩ => ⟨S_, .f32⟩
  | .hbm, ⟨49, _⟩ => ⟨S200000x8, .f32⟩
  | .hbm, ⟨50, _⟩ => ⟨S200000x8, .i1⟩
  | .hbm, ⟨51, _⟩ => ⟨S_, .f32⟩
  | .hbm, ⟨52, _⟩ => ⟨S200000x8, .f32⟩
  | .hbm, ⟨53, _⟩ => ⟨S200000x8, .f32⟩
  | .hbm, ⟨54, _⟩ => ⟨S_, .f32⟩
  | .hbm, ⟨55, _⟩ => ⟨S200000x8, .f32⟩
  | .hbm, ⟨56, _⟩ => ⟨S200000x8, .i1⟩
  | .hbm, ⟨57, _⟩ => ⟨S_, .f32⟩
  | .hbm, ⟨58, _⟩ => ⟨S200000x8, .f32⟩
  | .hbm, ⟨59, _⟩ => ⟨S200000x8, .f32⟩
  | .hbm, ⟨60, _⟩ => ⟨S200000x8, .f32⟩
  | .hbm, ⟨61, _⟩ => ⟨S200000x8, .f32⟩
  | .hbm, ⟨62, _⟩ => ⟨S_, .f32⟩
  | .hbm, ⟨63, _⟩ => ⟨S200000x8, .f32⟩
  | .hbm, ⟨64, _⟩ => ⟨S200000x8, .f32⟩
  | .hbm, ⟨65, _⟩ => ⟨S200000x8, .f32⟩
  | .hbm, ⟨66, _⟩ => ⟨S200000x8x1, .f32⟩
  | .hbm, ⟨67, _⟩ => ⟨S200000x8, .f32⟩
  | .hbm, ⟨68, _⟩ => ⟨S200000x8x1, .f32⟩
  | .hbm, ⟨69, _⟩ => ⟨S200000x8x64, .f32⟩
  | .hbm, ⟨70, _⟩ => ⟨S200000x8x64, .f32⟩
  | .hbm, ⟨71, _⟩ => ⟨S200000x8x64, .f32⟩
  | .hbm, ⟨72, _⟩ => ⟨S200000x8x64, .f32⟩
  | .hbm, ⟨73, _⟩ => ⟨S200000x8x64, .f32⟩
  | _, _ => ⟨S200000x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_call1_call0_v0 : Ref sig .tc := ⟨.hbm, 25, rfl⟩
abbrev main_call1_v2 : Ref sig .tc := ⟨.hbm, 26, rfl⟩
abbrev main_call1_cst : Ref sig .tc := ⟨.hbm, 27, rfl⟩
abbrev main_call1_v3 : Ref sig .tc := ⟨.hbm, 28, rfl⟩
abbrev main_call1_v4 : Ref sig .tc := ⟨.hbm, 29, rfl⟩
abbrev main_call1_cst_0 : Ref sig .tc := ⟨.hbm, 30, rfl⟩
abbrev main_call1_call1_v0 : Ref sig .tc := ⟨.hbm, 31, rfl⟩
abbrev main_call1_v5 : Ref sig .tc := ⟨.hbm, 32, rfl⟩
abbrev main_call1_cst_1 : Ref sig .tc := ⟨.hbm, 33, rfl⟩
abbrev main_call1_v6 : Ref sig .tc := ⟨.hbm, 34, rfl⟩
abbrev main_call1_v7 : Ref sig .tc := ⟨.hbm, 35, rfl⟩
abbrev main_call1_cst_2 : Ref sig .tc := ⟨.hbm, 36, rfl⟩
abbrev main_call1_call2_v0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_call2_call0_v0 : Ref sig .tc := ⟨.hbm, 46, rfl⟩
abbrev main_call2_v2 : Ref sig .tc := ⟨.hbm, 47, rfl⟩
abbrev main_call2_cst : Ref sig .tc := ⟨.hbm, 48, rfl⟩
abbrev main_call2_v3 : Ref sig .tc := ⟨.hbm, 49, rfl⟩
abbrev main_call2_v4 : Ref sig .tc := ⟨.hbm, 50, rfl⟩
abbrev main_call2_cst_0 : Ref sig .tc := ⟨.hbm, 51, rfl⟩
abbrev main_call2_call1_v0 : Ref sig .tc := ⟨.hbm, 52, rfl⟩
abbrev main_call2_v5 : Ref sig .tc := ⟨.hbm, 53, rfl⟩
abbrev main_call2_cst_1 : Ref sig .tc := ⟨.hbm, 54, rfl⟩
abbrev main_call2_v6 : Ref sig .tc := ⟨.hbm, 55, rfl⟩
abbrev main_call2_v7 : Ref sig .tc := ⟨.hbm, 56, rfl⟩
abbrev main_call2_cst_2 : Ref sig .tc := ⟨.hbm, 57, rfl⟩
abbrev main_call2_call2_v0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_4 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩

abbrev nD : Nat := 1
abbrev τ : Topo := Topo.v7x

variable {F : FTy → Type} [FloatOps F]

class Facts₀ : Prop where
  bcast_S1_S200000_0 : S1.BroadcastsInDim S200000 (![0] : Fin 1 → Fin S200000.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x8 : S_.BroadcastsInDim S200000x8 (![] : Fin 0 → Fin S200000x8.rank)
  bcast_S200000x1_S200000x8_0_1 : S200000x1.BroadcastsInDim S200000x8 (![0, 1] : Fin 2 → Fin S200000x8.rank)
  bcast_S200000x8_S200000x8x1_0_1 : S200000x8.BroadcastsInDim S200000x8x1 (![0, 1] : Fin 2 → Fin S200000x8x1.rank)
  bcast_S200000x8x1_S200000x8x64_0_1_2 : S200000x8x1.BroadcastsInDim S200000x8x64 (![0, 1, 2] : Fin 3 → Fin S200000x8x64.rank)

variable [Facts₀]

class Facts : Prop extends Facts₀ where

variable [Facts]
-- ==== Proof.Spec.lean ====
/-
  The history merge, one output element at a time.

  For a row n, a head h and a lane d the merged history is
      hx · (p / t) + x · (q / t),
  where, with M = max(ma, hm) the new running maximum of the row and head,
      p = exp(clean(hm − M)) · keep        the weight of the stored history,
      q = exp(clean(ma − M))               the weight of the new value,
      t = max(p + q, 1)                    the normaliser, clamped from below at one,
      keep = min(1, max(0, 1 − iw · ag))   the retention factor of the row,
  and clean is jnp.nan_to_num with nan := −∞: a value that differs from itself becomes −∞, then +∞ becomes the
  largest finite float and −∞ the smallest. The operations are the float instance's own (generic in the
  instance), in exactly the order both programs apply them, so no algebraic law is used anywhere: the kernel and
  the reference compute this same expression, the kernel block by block and the reference on whole arrays.
-/
import Idealize.ShloMosaic.PureOps.Ideal
import Idealize.ShloMosaic.Lib.ValueIdx

noncomputable section

namespace Cert.EmaMerge

open Idealize.ShloMosaic Idealize.ShloMosaic.ValueIdx

variable {F : FTy → Type} [FloatOps F]

/-- A value that differs from itself (a NaN, where the instance has one) becomes −∞. -/
def denan (s : F .f32) : F .f32 :=
  Scalar.select (FloatOps.cmpf .one s s) (Scalar.ofBits .f32 0xFF800000#32) s

/-- +∞ becomes the largest finite float. -/
def capTop (s : F .f32) : F .f32 :=
  Scalar.select (FloatOps.cmpf .oeq s (Scalar.ofBits .f32 0x7F800000#32)) (Scalar.ofBits .f32 0x7F7FFFFF#32) s

/-- −∞ becomes the smallest finite float. -/
def capBot (s : F .f32) : F .f32 :=
  Scalar.select (FloatOps.cmpf .oeq s (Scalar.ofBits .f32 0xFF800000#32)) (Scalar.ofBits .f32 0xFF7FFFFF#32) s

/-- jnp.nan_to_num with nan := −∞, in the order it is applied: NaN, then +∞, then −∞. -/
def clean (s : F .f32) : F .f32 := capBot (capTop (denan s))

/-- The retention factor of a row: 1 − iw · ag clipped to [0, 1]. -/
def keep (iw ag : F .f32) : F .f32 :=
  FloatOps.minimumf (Scalar.ofBits .f32 0x3F800000#32)
    (FloatOps.maximumf (Scalar.ofBits .f32 0x00000000#32)
      (FloatOps.subf (Scalar.ofBits .f32 0x3F800000#32) (FloatOps.mulf iw ag)))

/-- The weight of the stored history: exp of its cleaned distance to the new maximum, times the retention factor. -/
def wOld (ma hm ag iw : F .f32) : F .f32 :=
  FloatOps.mulf (FloatOps.exp (clean (FloatOps.subf hm (FloatOps.maximumf ma hm)))) (keep iw ag)

/-- The weight of the new value: exp of its cleaned distance to the new maximum. -/
def wNew (ma hm : F .f32) : F .f32 :=
  FloatOps.exp (clean (FloatOps.subf ma (FloatOps.maximumf ma hm)))

/-- The normaliser: the two weights' sum, at least one. -/
def total (ma hm ag iw : F .f32) : F .f32 :=
  FloatOps.maximumf (FloatOps.addf (wOld ma hm ag iw) (wNew ma hm)) (Scalar.ofBits .f32 0x3F800000#32)

/-- One element of the merged history. -/
def cell (x hx ma hm ag iw : F .f32) : F .f32 :=
  FloatOps.addf (FloatOps.mulf hx (FloatOps.divf (wOld ma hm ag iw) (total ma hm ag iw)))
    (FloatOps.mulf x (FloatOps.divf (wNew ma hm) (total ma hm ag iw)))

/-- The merged history at row n, head h, lane d, from the six argument arrays: x and hx are read at (n, h, d), the
    two maxima at (n, h), the row's count at n, and the one scale at 0. -/
def mergedAt (x : (⟨3, ![200000, 8, 64]⟩ : Shape).Idx → F .f32) (ma : (⟨2, ![200000, 8]⟩ : Shape).Idx → F .f32)
    (hx : (⟨3, ![200000, 8, 64]⟩ : Shape).Idx → F .f32) (hm : (⟨2, ![200000, 8]⟩ : Shape).Idx → F .f32)
    (ag : (⟨1, ![200000]⟩ : Shape).Idx → F .f32) (iw : (⟨1, ![1]⟩ : Shape).Idx → F .f32)
    (n : Fin 200000) (h : Fin 8) (d : Fin 64) : F .f32 :=
  cell (x (ix3 n h d)) (hx (ix3 n h d)) (ma (ix2 n h)) (hm (ix2 n h)) (ag (ix1 n)) (iw (ix1 (0 : Fin 1)))

/-- The merged history as one array. -/
def merged (x : (⟨3, ![200000, 8, 64]⟩ : Shape).Idx → F .f32) (ma : (⟨2, ![200000, 8]⟩ : Shape).Idx → F .f32)
    (hx : (⟨3, ![200000, 8, 64]⟩ : Shape).Idx → F .f32) (hm : (⟨2, ![200000, 8]⟩ : Shape).Idx → F .f32)
    (ag : (⟨1, ![200000]⟩ : Shape).Idx → F .f32) (iw : (⟨1, ![1]⟩ : Shape).Idx → F .f32) :
    (⟨3, ![200000, 8, 64]⟩ : Shape).Idx → F .f32 :=
  fun i => mergedAt x ma hx hm ag iw (i 0) (i 1) (i 2)

theorem merged_ix3 (x : (⟨3, ![200000, 8, 64]⟩ : Shape).Idx → F .f32) (ma : (⟨2, ![200000, 8]⟩ : Shape).Idx → F .f32)
    (hx : (⟨3, ![200000, 8, 64]⟩ : Shape).Idx → F .f32) (hm : (⟨2, ![200000, 8]⟩ : Shape).Idx → F .f32)
    (ag : (⟨1, ![200000]⟩ : Shape).Idx → F .f32) (iw : (⟨1, ![1]⟩ : Shape).Idx → F .f32)
    (n : Fin 200000) (h : Fin 8) (d : Fin 64) :
    merged x ma hx hm ag iw (ix3 n h d) = mergedAt x ma hx hm ag iw n h d := rfl

end Cert.EmaMerge

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRank3Layout.lean ====
/-
  Three layout operations of rank three read at an index given by coordinates.

  A matrix `[a, b]` viewed as `[a, b, 1]` (a trailing unit axis added by a shape cast) keeps its row-major
  position, so entry `(i, j, 0)` of the view is entry `(i, j)` of the matrix. A broadcast never moves a
  coordinate: it reads the operand at the same coordinate on every axis the operand really has, and at `0` on
  an axis of extent one. So `[a, b, 1]` broadcast to `[a, b, c]` forgets the last coordinate, and
  `[1, b, c]` broadcast to `[a, b, c]` forgets the first.

  Together: `x[:, :, None]` stretched along a new last axis reads `x (i, j)` at `(i, j, k)`, and
  `w[None, :, :]` stretched along a new first axis reads `w (j, k)` at `(p, j, k)`.
-/
import Idealize.ShloMosaic.Lib.ValueLayout

namespace Cert.Rank3Layout

open Idealize.ShloMosaic Idealize.ShloMosaic.ValueIdx

variable {α : Type}

/-- An `[a, b]` array cast to `[a, b, 1]` reads, at `(i, j, u)`, the operand at `(i, j)`, whatever the unit
    coordinate `u`: both sit at row-major position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the last
    axis has extent one in the operand, the other two are read where they are. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(p, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ =>
    show (0 : ℕ) = if (1 : ℕ) = 1 then 0 else p.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- The column view of a matrix stretched along a new last axis: `x[:, :, None]` broadcast to `[a, b, c]` reads
    `x (i, j)` at `(i, j, k)`. -/
theorem column_stretch_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The slab view of a matrix stretched along a new first axis: `w[None, :, :]` broadcast to `[a, b, c]` reads
    `w (j, k)` at `(p, j, k)`. -/
theorem slab_stretch_apply {a b c : ℕ} (w : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (p : Fin a) (j : Fin b) (k : Fin c) :
    broadcastTo ⟨3, ![a, b, c]⟩ (shapeCast ⟨3, ![1, b, c]⟩ w hc) hb (ix3 p j k) = w (ix2 j k) :=
  (broadcastTo_1bc_abc_apply _ hb p j k).trans (shapeCast_ab_1ab_apply w hc 0 j k)

end Cert.Rank3Layout
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.KernelCell.lean ====
/-
  The kernel body's stored value, one element at a time.

  The body computes, on a block of 1000 rows, the two weights of every (row, head) pair from the pair's two maxima,
  the row's count and the one scale, divides each by their clamped sum, and spreads the two quotients along the 64
  lanes before multiplying them with the stored history and the new value.  Every step is elementwise except four
  changes of layout: the scale [1, 1] spread down the rows' column [1000, 1], that column spread over the 8
  heads, and each quotient [1000, 8] given a trailing unit axis and spread over the lanes.  Read at row r, head h
  and lane d, each of these reads its operand at the coordinates that remain, so the stored element is the merge
  cell of the six loaded values that (r, h, d) names.
-/
import proofs.«118670_j15152644620653_2_alg».proof.Proof.Gen.KernelIdeal.Skeleton
import proofs.«118670_j15152644620653_2_alg».proof.Proof.Spec
import proofs.«118670_j15152644620653_2_alg».proof.Proof.LibKeepdims
import proofs.«118670_j15152644620653_2_alg».proof.Proof.LibRank3Layout
import proofs.«118670_j15152644620653_2_alg».proof.Proof.LibInDimLayout
import Idealize.ShloMosaic.Lib.Pipeline.Value
import Idealize.ShloMosaic.Lib.ValueIdx

noncomputable section

namespace Cert.EmaMerge.Kernel

open Idealize.ShloMosaic Idealize.ShloMosaic.ValueIdx Cert.KernelIdeal Cert.KernelIdeal.Gen Cert.EmaMerge

variable {F : FTy → Type} [FloatOps F]

/-- The history's weight at (r, h): the exponential of the cleaned distance of the stored maximum to the new one,
    times the row's retention factor — the count column is read at (r, 0), the scale at (0, 0). -/
theorem histWeight_at (iw : Vec F S1x1 .f32) (ag : Vec F S1000x1 .f32) (ma hm : Vec F S1000x8 .f32)
    (r : Fin 1000) (h : Fin 8) :
    k0_pay3 iw ag ma hm (ix2 r h)
      = wOld (ma (ix2 r h)) (hm (ix2 r h)) (ag (ix2 r (0 : Fin 1))) (iw (ix2 (0 : Fin 1) (0 : Fin 1))) := by
  unfold k0_pay3 k0_pay2
  try dsimp only
  show FloatOps.mulf _ (broadcastTo S1000x8 _ _ (ix2 r h)) = _
  rw [Cert.LibKeepdims.broadcastTo_a1_ab_apply]
  show FloatOps.mulf _ (FloatOps.minimumf _ (FloatOps.maximumf _ (FloatOps.subf _
    (FloatOps.mulf (broadcastTo S1000x1 (shapeCast S1x1 iw _) _ (ix2 r (0 : Fin 1)))
      (shapeCast S1000x1 ag _ (ix2 r (0 : Fin 1))))))) = _
  rw [Cert.LibInDimLayout.broadcastTo_11_a1_apply, shapeCast_self, shapeCast_self]
  rfl

/-- The new value's weight before its last cleaning step, at (r, h). -/
theorem newDist_at (ma hm : Vec F S1000x8 .f32) (r : Fin 1000) (h : Fin 8) :
    k0_pay4 ma hm (ix2 r h)
      = capTop (denan (FloatOps.subf (ma (ix2 r h)) (FloatOps.maximumf (ma (ix2 r h)) (hm (ix2 r h))))) := rfl

/-- The stored value at (r, h, d) from the two weights' vectors: each quotient, a [1000, 8] matrix given a
    trailing unit axis and spread over the lanes, is read at (r, h). -/
theorem stored_at (p s b : FVec F S1000x8 .f32) (hx x : Vec F S1000x8x64 .f32) (r : Fin 1000) (h : Fin 8) (d : Fin 64) :
    k0_pay1 p s b hx x (ix3 r h d)
      = FloatOps.addf
          (FloatOps.mulf (hx (ix3 r h d))
            (FloatOps.divf (p (ix2 r h))
              (FloatOps.maximumf (FloatOps.addf (p (ix2 r h))
                (FloatOps.exp (Scalar.select (FloatOps.cmpf .oeq (s (ix2 r h)) (b (ix2 r h))) (Scalar.ofBits .f32 0xFF7FFFFF#32) (s (ix2 r h)))))
                (Scalar.ofBits .f32 0x3F800000#32))))
          (FloatOps.mulf (x (ix3 r h d))
            (FloatOps.divf (FloatOps.exp (Scalar.select (FloatOps.cmpf .oeq (s (ix2 r h)) (b (ix2 r h))) (Scalar.ofBits .f32 0xFF7FFFFF#32) (s (ix2 r h))))
              (FloatOps.maximumf (FloatOps.addf (p (ix2 r h))
                (FloatOps.exp (Scalar.select (FloatOps.cmpf .oeq (s (ix2 r h)) (b (ix2 r h))) (Scalar.ofBits .f32 0xFF7FFFFF#32) (s (ix2 r h)))))
                (Scalar.ofBits .f32 0x3F800000#32)))) := by
  unfold k0_pay1
  try dsimp only
  show FloatOps.addf
      (FloatOps.mulf _ (broadcastTo S1000x8x64 (shapeCast S1000x8x1 _ _) _ (ix3 r h d)))
      (FloatOps.mulf _ (broadcastTo S1000x8x64 (shapeCast S1000x8x1 _ _) _ (ix3 r h d))) = _
  rw [Cert.Rank3Layout.column_stretch_apply, Cert.Rank3Layout.column_stretch_apply]
  rfl

/-- THE STORED ELEMENT at row r, head h, lane d of a block is the merge cell of the loaded values there. -/
theorem cell_at (iw : Vec F S1x1 .f32) (ag : Vec F S1000x1 .f32) (ma hm : Vec F S1000x8 .f32)
    (hx x : Vec F S1000x8x64 .f32) (r : Fin 1000) (h : Fin 8) (d : Fin 64) :
    k0_pay1 (k0_pay3 iw ag ma hm) (k0_pay4 ma hm) (k0_pay5 (F := F)) hx x (ix3 r h d)
      = cell (x (ix3 r h d)) (hx (ix3 r h d)) (ma (ix2 r h)) (hm (ix2 r h)) (ag (ix2 r (0 : Fin 1)))
          (iw (ix2 (0 : Fin 1) (0 : Fin 1))) := by
  rw [stored_at, histWeight_at, newDist_at]
  rfl

end Cert.EmaMerge.Kernel

end
-- ==== Proof.KernelValue.lean ====
/-
  From blocks to the whole array: after the kernel's run the result array holds `merged` of the arguments.

  The grid has 200 points; point t stages rows 1000·t … 1000·t + 999 of each row-indexed array (all heads, all
  lanes), the whole one-by-one scale, and writes the same rows of the result back.  So an element of a staged block
  at local row r is the array's element at row 1000·t + r, the block the body leaves is the merge cell of those
  elements (the stored value read at an index), and it is written where the result's rows 1000·t + r are: point t
  writes block t of one whole-array function.  Every row lies in the block of point ⌊row / 1000⌋, so the blocks
  cover the result.  The count and the scale reach the kernel as a column [200000, 1] and a one-by-one matrix, the
  host's recasts of the vector [200000] and of the one-element vector: they read the same elements.
-/
import proofs.«118670_j15152644620653_2_alg».proof.Proof.Gen.KernelIdeal.Frame
import proofs.«118670_j15152644620653_2_alg».proof.Proof.Spec
import proofs.«118670_j15152644620653_2_alg».proof.Proof.KernelCell
import proofs.«118670_j15152644620653_2_alg».proof.Proof.LibKeepdims
import Idealize.ShloMosaic.Lib.Pipeline.Value
import Idealize.ShloMosaic.Lib.StableHlo.Run
import Idealize.ShloMosaic.Lib.ValueIdx

noncomputable section

namespace Cert.EmaMerge.Kernel

open Cert.KernelIdeal Cert.KernelIdeal.Gen Idealize.ShloMosaic Idealize.ShloMosaic.TcCoe Idealize.SL.Sem
open Idealize.ShloMosaic.ValueIdx Cert.EmaMerge
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The merge with the count as a column and the scale as a one-by-one matrix -/

/-- `mergedAt` with the row's count read from a column [200000, 1] and the scale from a [1, 1] matrix. -/
def mergedColsAt (x : (⟨3, ![200000, 8, 64]⟩ : Shape).Idx → F .f32) (ma : (⟨2, ![200000, 8]⟩ : Shape).Idx → F .f32)
    (hx : (⟨3, ![200000, 8, 64]⟩ : Shape).Idx → F .f32) (hm : (⟨2, ![200000, 8]⟩ : Shape).Idx → F .f32)
    (agc : (⟨2, ![200000, 1]⟩ : Shape).Idx → F .f32) (iwc : (⟨2, ![1, 1]⟩ : Shape).Idx → F .f32)
    (n : Fin 200000) (h : Fin 8) (d : Fin 64) : F .f32 :=
  cell (x (ix3 n h d)) (hx (ix3 n h d)) (ma (ix2 n h)) (hm (ix2 n h)) (agc (ix2 n (0 : Fin 1)))
    (iwc (ix2 (0 : Fin 1) (0 : Fin 1)))

/-- The same as one array. -/
def mergedCols (x : (⟨3, ![200000, 8, 64]⟩ : Shape).Idx → F .f32) (ma : (⟨2, ![200000, 8]⟩ : Shape).Idx → F .f32)
    (hx : (⟨3, ![200000, 8, 64]⟩ : Shape).Idx → F .f32) (hm : (⟨2, ![200000, 8]⟩ : Shape).Idx → F .f32)
    (agc : (⟨2, ![200000, 1]⟩ : Shape).Idx → F .f32) (iwc : (⟨2, ![1, 1]⟩ : Shape).Idx → F .f32) :
    (⟨3, ![200000, 8, 64]⟩ : Shape).Idx → F .f32 :=
  fun i => mergedColsAt x ma hx hm agc iwc (i 0) (i 1) (i 2)

/-- With the column the recast of the count vector and the matrix the recast of the one-element scale, it is `merged`. -/
theorem mergedCols_recast (x : (⟨3, ![200000, 8, 64]⟩ : Shape).Idx → F .f32) (ma : (⟨2, ![200000, 8]⟩ : Shape).Idx → F .f32)
    (hx : (⟨3, ![200000, 8, 64]⟩ : Shape).Idx → F .f32) (hm : (⟨2, ![200000, 8]⟩ : Shape).Idx → F .f32)
    (ag : (⟨1, ![200000]⟩ : Shape).Idx → F .f32) (iw : (⟨1, ![1]⟩ : Shape).Idx → F .f32)
    (h4 : (⟨1, ![200000]⟩ : Shape).ShapeCasts ⟨2, ![200000, 1]⟩) (h5 : (⟨1, ![1]⟩ : Shape).ShapeCasts ⟨2, ![1, 1]⟩) :
    mergedCols x ma hx hm (shapeCast ⟨2, ![200000, 1]⟩ ag h4) (shapeCast ⟨2, ![1, 1]⟩ iw h5) = merged x ma hx hm ag iw := by
  funext i
  obtain ⟨n, h, d, rfl⟩ : ∃ (n : Fin 200000) (h : Fin 8) (d : Fin 64), i = ix3 n h d := ⟨i 0, i 1, i 2, eq_ix3 i⟩
  show mergedColsAt x ma hx hm _ _ n h d = mergedAt x ma hx hm ag iw n h d
  unfold mergedColsAt mergedAt
  rw [Cert.LibKeepdims.shapeCast_a_a1_apply, Cert.LibKeepdims.shapeCast_a_a1_apply]

/-! ## The block a point leaves, at an index -/

/-- What the body leaves in the result's staging buffer, at row r, head h and lane d of the block: the merge cell
    of the staged blocks' elements there. -/
theorem block_at (x0 : Vec F S1000x8x64 .f32) (x1 : Vec F S1000x8 .f32) (x2 : Vec F S1000x8x64 .f32) (x3 : Vec F S1000x8 .f32)
    (x4 : Vec F S1000x1 .f32) (x5 : Vec F S1x1 .f32) (r : Fin 1000) (h : Fin 8) (d : Fin 64) :
    out0_6 x0 x1 x2 x3 x4 x5 (ix3 r h d)
      = cell (x0 (ix3 r h d)) (x2 (ix3 r h d)) (x1 (ix2 r h)) (x3 (ix2 r h)) (x4 (ix2 r (0 : Fin 1)))
          (x5 (ix2 (0 : Fin 1) (0 : Fin 1))) := by
  unfold out0_6
  rw [View.canon_unit_zero hz3]
  simp only [View.ld_unit_zero (S := S1000x8x64) hz3, View.ld_unit_zero (S := S1000x8) hz2,
    View.ld_unit_zero (S := S1000x1) hz2, View.ld_unit_zero (S := S1x1) hz2]
  exact cell_at x5 x4 x1 x3 x2 x0 r h d

/-- The same against whole arrays: if each staged block's element at a local index is the array's element at the
    index `1000·tv` rows further down (the scale's at its one index), the stored block at local index `y` is
    `mergedCols` of the arrays at the index `k` that many rows further down. -/
theorem block_eq_mergedCols (x0 : Vec F S1000x8x64 .f32) (x1 : Vec F S1000x8 .f32) (x2 : Vec F S1000x8x64 .f32)
    (x3 : Vec F S1000x8 .f32) (x4 : Vec F S1000x1 .f32) (x5 : Vec F S1x1 .f32)
    (A0 : (⟨3, ![200000, 8, 64]⟩ : Shape).Idx → F .f32) (A1 : (⟨2, ![200000, 8]⟩ : Shape).Idx → F .f32)
    (A2 : (⟨3, ![200000, 8, 64]⟩ : Shape).Idx → F .f32) (A3 : (⟨2, ![200000, 8]⟩ : Shape).Idx → F .f32)
    (A4 : (⟨2, ![200000, 1]⟩ : Shape).Idx → F .f32) (A5 : (⟨2, ![1, 1]⟩ : Shape).Idx → F .f32) (tv : ℕ)
    (h0 : ∀ (r : Fin 1000) (h : Fin 8) (d : Fin 64) (n : Fin 200000), n.val = 1000 * tv + r.val → x0 (ix3 r h d) = A0 (ix3 n h d))
    (h1 : ∀ (r : Fin 1000) (h : Fin 8) (n : Fin 200000), n.val = 1000 * tv + r.val → x1 (ix2 r h) = A1 (ix2 n h))
    (h2 : ∀ (r : Fin 1000) (h : Fin 8) (d : Fin 64) (n : Fin 200000), n.val = 1000 * tv + r.val → x2 (ix3 r h d) = A2 (ix3 n h d))
    (h3 : ∀ (r : Fin 1000) (h : Fin 8) (n : Fin 200000), n.val = 1000 * tv + r.val → x3 (ix2 r h) = A3 (ix2 n h))
    (h4 : ∀ (r : Fin 1000) (n : Fin 200000), n.val = 1000 * tv + r.val → x4 (ix2 r (0 : Fin 1)) = A4 (ix2 n (0 : Fin 1)))
    (h5 : x5 (ix2 (0 : Fin 1) (0 : Fin 1)) = A5 (ix2 (0 : Fin 1) (0 : Fin 1)))
    (y : S1000x8x64.Idx) (k : S200000x8x64.Idx)
    (hk0 : (k 0).val = 1000 * tv + (y 0).val) (hk1 : (k 1).val = (y 1).val) (hk2 : (k 2).val = (y 2).val) :
    out0_6 x0 x1 x2 x3 x4 x5 y = mergedCols A0 A1 A2 A3 A4 A5 k := by
  obtain ⟨r, h, d, rfl⟩ : ∃ (r : Fin 1000) (h : Fin 8) (d : Fin 64), y = ix3 r h d := ⟨y 0, y 1, y 2, eq_ix3 y⟩
  obtain ⟨n, h', d', rfl⟩ : ∃ (n : Fin 200000) (h' : Fin 8) (d' : Fin 64), k = ix3 n h' d' := ⟨k 0, k 1, k 2, eq_ix3 k⟩
  have en : n.val = 1000 * tv + r.val := hk0
  obtain rfl : h' = h := Fin.ext hk1
  obtain rfl : d' = d := Fin.ext hk2
  rw [block_at]
  show _ = mergedColsAt A0 A1 A2 A3 A4 A5 n h' d'
  unfold mergedColsAt
  rw [h0 r h' d' n en, h1 r h' n en, h2 r h' d' n en, h3 r h' n en, h4 r n en, h5]

/-! ## The staged blocks as rows of the arrays -/

/-- The printed index maps over the grid: every row-indexed window's block index is the point's number on the row axis
    and 0 on the others; the scale's is 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0) :=
  (by decide +kernel : ∀ t : Fin grid0.N, _)

/-- Window 0's block at point t (the new value) is rows 1000·t … of its array. -/
theorem iblk0_at (c : Dev nD) (t : Fin cfg0.N) (r : Fin 1000) (h : Fin 8) (d : Fin 64) (n : Fin 200000)
    (hn : n.val = 1000 * t.val + r.val) :
    (iblk m c 0 t : Vec F S1000x8x64 .f32) (ix3 r h d) = (V m c main_arg0 : S200000x8x64.Idx → Elt F .f32) (ix3 n h d) := by
  obtain ⟨⟨e0, e1, e2⟩, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 3) * 1000 + 1 * r.val = n.val; rw [e0, hn]; omega
  | ⟨1, _⟩ => show win0_0.index t (1 : Fin 3) * 8 + 1 * h.val = h.val; rw [e1]; omega
  | ⟨2, _⟩ => show win0_0.index t (2 : Fin 3) * 64 + 1 * d.val = d.val; rw [e2]; omega

/-- Window 2's block at point t (the stored history) is rows 1000·t … of its array. -/
theorem iblk2_at (c : Dev nD) (t : Fin cfg0.N) (r : Fin 1000) (h : Fin 8) (d : Fin 64) (n : Fin 200000)
    (hn : n.val = 1000 * t.val + r.val) :
    (iblk m c 2 t : Vec F S1000x8x64 .f32) (ix3 r h d) = (V m c main_arg2 : S200000x8x64.Idx → Elt F .f32) (ix3 n h d) := by
  obtain ⟨-, -, ⟨e0, e1, e2⟩, -⟩ := idx_facts t
  unfold iblk
  rw [View.read_apply]
  show V m c main_arg2 _ = V m c main_arg2 _
  refine congrArg (V m c main_arg2) ?_
  funext a
  apply Fin.ext
  match a with
  | ⟨0, _⟩ => show win0_2.index t (0 : Fin 3) * 1000 + 1 * r.val = n.val; rw [e0, hn]; omega
  | ⟨1, _⟩ => show win0_2.index t (1 : Fin 3) * 8 + 1 * h.val = h.val; rw [e1]; omega
  | ⟨2, _⟩ => show win0_2.index t (2 : Fin 3) * 64 + 1 * d.val = d.val; rw [e2]; omega

/-- Window 1's block at point t (the new maxima) is rows 1000·t … of its array. -/
theorem iblk1_at (c : Dev nD) (t : Fin cfg0.N) (r : Fin 1000) (h : Fin 8) (n : Fin 200000)
    (hn : n.val = 1000 * t.val + r.val) :
    (iblk m c 1 t : Vec F S1000x8 .f32) (ix2 r h) = (V m c main_arg1 : S200000x8.Idx → Elt F .f32) (ix2 n h) := by
  obtain ⟨-, ⟨e0, e1⟩, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 2) * 1000 + 1 * r.val = n.val; rw [e0, hn]; omega
  | ⟨1, _⟩ => show win0_1.index t (1 : Fin 2) * 8 + 1 * h.val = h.val; rw [e1]; omega

/-- Window 3's block at point t (the stored maxima) is rows 1000·t … of its array. -/
theorem iblk3_at (c : Dev nD) (t : Fin cfg0.N) (r : Fin 1000) (h : Fin 8) (n : Fin 200000)
    (hn : n.val = 1000 * t.val + r.val) :
    (iblk m c 3 t : Vec F S1000x8 .f32) (ix2 r h) = (V m c main_arg3 : S200000x8.Idx → Elt F .f32) (ix2 n h) := by
  obtain ⟨-, -, -, ⟨e0, e1⟩, -⟩ := idx_facts t
  unfold iblk
  rw [View.read_apply]
  show V m c main_arg3 _ = V m c main_arg3 _
  refine congrArg (V m c main_arg3) ?_
  funext a
  apply Fin.ext
  match a with
  | ⟨0, _⟩ => show win0_3.index t (0 : Fin 2) * 1000 + 1 * r.val = n.val; rw [e0, hn]; omega
  | ⟨1, _⟩ => show win0_3.index t (1 : Fin 2) * 8 + 1 * h.val = h.val; rw [e1]; omega

/-- Window 4's block at point t (the counts' column) is rows 1000·t … of the column. -/
theorem iblk4_at (c : Dev nD) (t : Fin cfg0.N) (r : Fin 1000) (n : Fin 200000)
    (hn : n.val = 1000 * t.val + r.val) :
    (iblk m c 4 t : Vec F S1000x1 .f32) (ix2 r (0 : Fin 1)) = (V m c main_v0 : S200000x1.Idx → Elt F .f32) (ix2 n (0 : Fin 1)) := by
  obtain ⟨-, -, -, -, ⟨e0, e1⟩, -⟩ := idx_facts t
  unfold iblk
  rw [View.read_apply]
  show V m c main_v0 _ = V m c main_v0 _
  refine congrArg (V m c main_v0) ?_
  funext a
  apply Fin.ext
  match a with
  | ⟨0, _⟩ => show win0_4.index t (0 : Fin 2) * 1000 + 1 * r.val = n.val; rw [e0, hn]; omega
  | ⟨1, _⟩ => show win0_4.index t (1 : Fin 2) * 1 + 1 * 0 = 0; rw [e1]

/-- Window 5's block at every point is the whole one-by-one scale. -/
theorem iblk5_at (c : Dev nD) (t : Fin cfg0.N) :
    (iblk m c 5 t : Vec F S1x1 .f32) (ix2 (0 : Fin 1) (0 : Fin 1)) = (V m c main_v1 : S1x1.Idx → Elt F .f32) (ix2 (0 : Fin 1) (0 : Fin 1)) := by
  obtain ⟨-, -, -, -, -, ⟨e0, e1⟩, -⟩ := idx_facts t
  unfold iblk
  rw [View.read_apply]
  show V m c main_v1 _ = V m c main_v1 _
  refine congrArg (V m c main_v1) ?_
  funext a
  apply Fin.ext
  match a with
  | ⟨0, _⟩ => show win0_5.index t (0 : Fin 2) * 1 + 1 * 0 = 0; rw [e0]
  | ⟨1, _⟩ => show win0_5.index t (1 : Fin 2) * 1 + 1 * 0 = 0; rw [e1]

/-! ## What a point writes back, the cover, the array -/

/-- `mergedCols` of the arrays as the region finds them. -/
abbrev found (c : Dev nD) : S200000x8x64.Idx → Elt F .f32 :=
  mergedCols (V m c main_arg0) (V m c main_arg1) (V m c main_arg2) (V m c main_arg3) (V m c main_v0) (V m c main_v1)

/-- WHAT POINT t WRITES BACK is block t of `found`. -/
theorem flushed_eq (c : Dev nD) (t : Fin cfg0.N) :
    (dats m 0 c).flushed 6 t = ((cfg0.win 6).blk t).view.read (Elt F) (found m c) := by
  show (cfg0.win 6).cut (grid0.coords t) ((dats m 0 c).after 6 t) = _
  rw [after0_6]
  obtain ⟨-, -, -, -, -, -, ⟨e0, e1, e2⟩⟩ := idx_facts t
  funext j
  rw [View.read_apply]
  refine block_eq_mergedCols (iblk m c 0 t) (iblk m c 1 t) (iblk m c 2 t) (iblk m c 3 t) (iblk m c 4 t) (iblk m c 5 t)
    (V m c main_arg0) (V m c main_arg1) (V m c main_arg2) (V m c main_arg3) (V m c main_v0) (V m c main_v1) t.val
    (fun r h d n hn => iblk0_at m c t r h d n hn) (fun r h n hn => iblk1_at m c t r h n hn)
    (fun r h d n hn => iblk2_at m c t r h d n hn) (fun r h n hn => iblk3_at m c t r h n hn)
    (fun r n hn => iblk4_at m c t r n hn) (iblk5_at m c t) j _ ?_ ?_ ?_
  · show win0_6.index t (0 : Fin 3) * 1000 + 1 * (j 0).val = 1000 * t.val + (j 0).val; rw [e0]; omega
  · show win0_6.index t (1 : Fin 3) * 8 + 1 * (j 1).val = (j 1).val; rw [e1]; omega
  · show win0_6.index t (2 : Fin 3) * 64 + 1 * (j 2).val = (j 2).val; rw [e2]; omega

/-- An index of the result is in point t's block iff each coordinate is in the block's range on its axis. -/
theorem mem_blk (t : Fin cfg0.N) (i : S200000x8x64.Idx) :
    i ∈ ((cfg0.win 6).blk t).view.set ↔ ∀ a : Fin 3, win0_6.index t a * S1000x8x64.size a ≤ (i a).val ∧ (i a).val < win0_6.index t a * S1000x8x64.size a + S1000x8x64.size a := by
  show i ∈ ((View.whole main_v2).slice (win0_6.rect t)).set ↔ _
  rw [View.set_slice_whole, Rect.mem_set_unit]
  exact Iff.rfl

/-- Every index of the result lies in the block of the point its row's thousand names. -/
theorem cover (i : S200000x8x64.Idx) : ∃ t : Fin cfg0.N, (cfg0.win 6).flush t = true ∧ i ∈ ((cfg0.win 6).blk t).view.set := by
  have hi0 : (i 0).val < 200000 := (i 0).isLt
  have hi1 : (i 1).val < 8 := (i 1).isLt
  have hi2 : (i 2).val < 64 := (i 2).isLt
  have hN : cfg0.N = 200 := N_0
  refine ⟨⟨(i 0).val / 1000, by rw [hN]; omega⟩, flush0_6 _, ?_⟩
  rw [mem_blk]
  obtain ⟨-, -, -, -, -, -, ⟨e0, e1, e2⟩⟩ := idx_facts ⟨(i 0).val / 1000, by rw [hN]; omega⟩
  intro a
  match a with
  | ⟨0, _⟩ => show win0_6.index _ (0 : Fin 3) * 1000 ≤ (i 0).val ∧ (i 0).val < win0_6.index _ (0 : Fin 3) * 1000 + 1000; rw [e0]; show (i 0).val / 1000 * 1000 ≤ (i 0).val ∧ (i 0).val < (i 0).val / 1000 * 1000 + 1000; omega
  | ⟨1, _⟩ => show win0_6.index _ (1 : Fin 3) * 8 ≤ (i 1).val ∧ (i 1).val < win0_6.index _ (1 : Fin 3) * 8 + 8; rw [e1]; omega
  | ⟨2, _⟩ => show win0_6.index _ (2 : Fin 3) * 64 ≤ (i 2).val ∧ (i 2).val < win0_6.index _ (2 : Fin 3) * 64 + 64; rw [e2]; omega

/-- The result array after the run is `found`. -/
theorem final_found (c : Dev nD) : (dats m 0 c).arrAt 6 cfg0.N = found m c :=
  (dats m 0 c).arrAt_eq_of_cover 6 (found m c) (fun t _ => flushed_eq m c t) cover

/-! ## The arrays the region finds, from the arguments -/

/-- The counts' column is the host's recast of the count vector. -/
theorem V_counts (c : Dev nD) : (V m c main_v0 : S200000x1.Idx → Elt F .f32)
    = shapeCast S200000x1 (m ((c : Thread nD τ).loc main_arg4) : S200000.Idx → Elt F .f32) shapeCasts_S200000_S200000x1 := by
  dsimp only [V, hostOps0]
  after_results
  rfl

/-- The one-by-one scale is the host's recast of the one-element vector. -/
theorem V_scale (c : Dev nD) : (V m c main_v1 : S1x1.Idx → Elt F .f32)
    = shapeCast S1x1 (m ((c : Thread nD τ).loc main_arg5) : S1.Idx → Elt F .f32) shapeCasts_S1_S1x1 := by
  dsimp only [V, hostOps0]
  after_results
  rfl

/-- THE RESULT ARRAY after the run is `merged` of the six arguments as launched. -/
theorem final (c : Dev nD) : (dats m 0 c).arrAt 6 cfg0.N
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [final_found]
  unfold found
  rw [V_counts, V_scale, V_main_arg0, V_main_arg1, V_main_arg2, V_main_arg3]
  exact mergedCols_recast _ _ _ _ _ _ _ _

/-! ## The run, read -/

/-- Every weakly fair execution of the kernel's program terminates with the result array at `merged` of the
    arguments and the arguments unchanged. -/
theorem run : θ_run defs (onTc (τ := τ) (main (F := F))) ⟨m, fun _ => 0, ρ⟩ fun r => ∀ c : Dev nD,
      r.2.mem ((c : Thread nD τ).loc main_v2)
        = merged (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.EmaMerge.Kernel

end
-- ==== Proof.RefRun.lean ====
/-
  The reference's run, read back: what its result array holds as one term of the argument arrays.

  The reference is a straight line of whole-array host operations; the three helpers it calls (the clip of the
  retention factor to [0, 1], the replacement of NaN and of the two infinities, and the select under it) run their
  bodies in place at the call, so the whole program is one list of 68 operations, each writing a buffer of its own.
  Folding that list over the launch contents leaves, in the result buffer, the term `mergedArrays` below of the six
  arguments: the retention factor of each row, clipped; the new running maximum; the two cleaned distances to it,
  exponentiated, the history's scaled by the retention factor spread over the heads; their sum clamped from below
  at one; and the two quotients spread over the lanes, multiplied with the stored history and the new value and
  added.  The arguments themselves are written by no operation.
-/
import proofs.«118670_j15152644620653_2_alg».proof.Proof.Gen.ReferenceIdeal
import Idealize.ShloMosaic.Lib.StableHlo.Run

noncomputable section

namespace Cert.EmaMerge.Reference

open Cert.ReferenceIdeal Cert.ReferenceIdeal.Gen Idealize.ShloMosaic Idealize.ShloMosaic.TcCoe Idealize.SL.Sem Idealize.ShloMosaic.StableHlo

variable {F : FTy → Type} [FloatOps F]

/-! ## The result as a term of the arguments -/

/-- One value in every (row, head) position. -/
def everywhere (b : BitVec 32) : (⟨S200000x8, .f32⟩ : BufTy).Contents (Elt F) :=
  broadcastInDim S200000x8 ![] bcast_S_S200000x8 (constant S_ .f32 b)

/-- One value in every row. -/
def everyRow (b : BitVec 32) : (⟨S200000, .f32⟩ : BufTy).Contents (Elt F) :=
  broadcastInDim S200000 ![] bcast_S_S200000 (constant S_ .f32 b)

/-- The rows' retention factors: 1 − iw · ag clipped to [0, 1], the one scale spread over the rows. -/
def retain (ag : (⟨S200000, .f32⟩ : BufTy).Contents (Elt F)) (iw : (⟨S1, .f32⟩ : BufTy).Contents (Elt F)) : (⟨S200000, .f32⟩ : BufTy).Contents (Elt F) :=
  minimumf (everyRow 0x3F800000#32)
    (maximumf (everyRow 0x00000000#32)
      (subf (everyRow 0x3F800000#32) (mulf (broadcastInDim S200000 ![0] bcast_S1_S200000_0 iw) ag)))

/-- NaN becomes −∞. -/
def denanAll (v : (⟨S200000x8, .f32⟩ : BufTy).Contents (Elt F)) : (⟨S200000x8, .f32⟩ : BufTy).Contents (Elt F) :=
  select (cmpf .une v v) (everywhere 0xFF800000#32) v

/-- +∞ becomes the largest finite float. -/
def capTopAll (v : (⟨S200000x8, .f32⟩ : BufTy).Contents (Elt F)) : (⟨S200000x8, .f32⟩ : BufTy).Contents (Elt F) :=
  select (cmpf .oeq v (everywhere 0x7F800000#32)) (everywhere 0x7F7FFFFF#32) v

/-- −∞ becomes the smallest finite float. -/
def capBotAll (v : (⟨S200000x8, .f32⟩ : BufTy).Contents (Elt F)) : (⟨S200000x8, .f32⟩ : BufTy).Contents (Elt F) :=
  select (cmpf .oeq v (everywhere 0xFF800000#32)) (everywhere 0xFF7FFFFF#32) v

/-- jnp.nan_to_num with nan := −∞ on a whole array. -/
def cleanAll (v : (⟨S200000x8, .f32⟩ : BufTy).Contents (Elt F)) : (⟨S200000x8, .f32⟩ : BufTy).Contents (Elt F) := capBotAll (capTopAll (denanAll v))

/-- The history's weights: each row's retention factor spread over the heads. -/
def histWeights (ma hm : (⟨S200000x8, .f32⟩ : BufTy).Contents (Elt F)) (ag : (⟨S200000, .f32⟩ : BufTy).Contents (Elt F)) (iw : (⟨S1, .f32⟩ : BufTy).Contents (Elt F)) : (⟨S200000x8, .f32⟩ : BufTy).Contents (Elt F) :=
  mulf (Host.exp (cleanAll (subf hm (maximumf ma hm))))
    (broadcastInDim S200000x8 ![0, 1] bcast_S200000x1_S200000x8_0_1
      (broadcastInDim S200000x1 ![0] bcast_S200000_S200000x1_0 (retain ag iw)))

/-- The new values' weights. -/
def newWeights (ma hm : (⟨S200000x8, .f32⟩ : BufTy).Contents (Elt F)) : (⟨S200000x8, .f32⟩ : BufTy).Contents (Elt F) :=
  Host.exp (cleanAll (subf ma (maximumf ma hm)))

/-- The normalisers: the two weights' sums, at least one. -/
def totals (ma hm : (⟨S200000x8, .f32⟩ : BufTy).Contents (Elt F)) (ag : (⟨S200000, .f32⟩ : BufTy).Contents (Elt F)) (iw : (⟨S1, .f32⟩ : BufTy).Contents (Elt F)) : (⟨S200000x8, .f32⟩ : BufTy).Contents (Elt F) :=
  maximumf (addf (histWeights ma hm ag iw) (newWeights ma hm)) (everywhere 0x3F800000#32)

/-- A (row, head) array given a trailing unit axis and spread over the 64 lanes. -/
def overLanes (v : (⟨S200000x8, .f32⟩ : BufTy).Contents (Elt F)) : (⟨S200000x8x64, .f32⟩ : BufTy).Contents (Elt F) :=
  broadcastInDim S200000x8x64 ![0, 1, 2] bcast_S200000x8x1_S200000x8x64_0_1_2
    (broadcastInDim S200000x8x1 ![0, 1] bcast_S200000x8_S200000x8x1_0_1 v)

/-- The merged history as the reference computes it, on whole arrays. -/
def mergedArrays (x : (⟨S200000x8x64, .f32⟩ : BufTy).Contents (Elt F)) (ma : (⟨S200000x8, .f32⟩ : BufTy).Contents (Elt F)) (hx : (⟨S200000x8x64, .f32⟩ : BufTy).Contents (Elt F)) (hm : (⟨S200000x8, .f32⟩ : BufTy).Contents (Elt F))
    (ag : (⟨S200000, .f32⟩ : BufTy).Contents (Elt F)) (iw : (⟨S1, .f32⟩ : BufTy).Contents (Elt F)) : (⟨S200000x8x64, .f32⟩ : BufTy).Contents (Elt F) :=
  addf (mulf hx (overLanes (Host.divf (histWeights ma hm ag iw) (totals ma hm ag iw))))
    (mulf x (overLanes (Host.divf (newWeights ma hm) (totals ma hm ag iw))))

/-! ## The program as a list of operations -/

/-- The reference's 68 operations in program order, each helper's body in place of its call. -/
abbrev ops : List (HloOp τ sig (Elt F)) :=
  [
    unary main_arg5 main_v0 (broadcastInDim S200000 ![0] bcast_S1_S200000_0 : (⟨S1, .f32⟩ : BufTy).Contents (Elt F) → (⟨S200000, .f32⟩ : BufTy).Contents (Elt F)),
    binary main_v0 main_arg4 main_v1 (mulf : (⟨S200000, .f32⟩ : BufTy).Contents (Elt F) → (⟨S200000, .f32⟩ : BufTy).Contents (Elt F) → (⟨S200000, .f32⟩ : BufTy).Contents (Elt F)),
    nullary main_cst (constant S_ .f32 0x3F800000#32),
    unary main_cst main_v2 (broadcastInDim S200000 ![] bcast_S_S200000 : (⟨S_, .f32⟩ : BufTy).Contents (Elt F) → (⟨S200000, .f32⟩ : BufTy).Contents (Elt F)),
    binary main_v2 main_v1 main_v3 (subf : (⟨S200000, .f32⟩ : BufTy).Contents (Elt F) → (⟨S200000, .f32⟩ : BufTy).Contents (Elt F) → (⟨S200000, .f32⟩ : BufTy).Contents (Elt F)),
    nullary main_cst_0 (constant S_ .f32 0x00000000#32),
    nullary main_cst_1 (constant S_ .f32 0x3F800000#32),
    TRef.unary (.of main_cst_0 : TRef sig ⟨S_, .f32⟩) main_call0.v0 id,
    TRef.unary main_call0.v0 main_call0.v1 (broadcastInDim S200000 ![] bcast_S_S200000),
    TRef.binary main_call0.v1 (.of main_v3 : TRef sig ⟨S200000, .f32⟩) main_call0.v2 maximumf,
    TRef.unary (.of main_cst_1 : TRef sig ⟨S_, .f32⟩) main_call0.v3 id,
    TRef.unary main_call0.v3 main_call0.v4 (broadcastInDim S200000 ![] bcast_S_S200000),
    TRef.binary main_call0.v4 main_call0.v2 main_call0.v5 minimumf,
    unary main_v4 main_v5 (broadcastInDim S200000x1 ![0] bcast_S200000_S200000x1_0 : (⟨S200000, .f32⟩ : BufTy).Contents (Elt F) → (⟨S200000x1, .f32⟩ : BufTy).Contents (Elt F)),
    binary main_arg1 main_arg3 main_v6 (maximumf : (⟨S200000x8, .f32⟩ : BufTy).Contents (Elt F) → (⟨S200000x8, .f32⟩ : BufTy).Contents (Elt F) → (⟨S200000x8, .f32⟩ : BufTy).Contents (Elt F)),
    binary main_arg3 main_v6 main_v7 (subf : (⟨S200000x8, .f32⟩ : BufTy).Contents (Elt F) → (⟨S200000x8, .f32⟩ : BufTy).Contents (Elt F) → (⟨S200000x8, .f32⟩ : BufTy).Contents (Elt F)),
    nullary main_cst_2 (constant S_ .f32 0xFF800000#32),
    TRef.binary (.of main_v7 : TRef sig ⟨S200000x8, .f32⟩) (.of main_v7 : TRef sig ⟨S200000x8, .f32⟩) main_call1.v0 (cmpf .une),
    TRef.unary (.of main_cst_2 : TRef sig ⟨S_, .f32⟩) main_call1.v1 id,
    TRef.unary main_call1.v1 main_call1.call0.v0 (broadcastInDim S200000x8 ![] bcast_S_S200000x8),
    TRef.ternary main_call1.v0 main_call1.call0.v0 (.of main_v7 : TRef sig ⟨S200000x8, .f32⟩) main_call1.call0.v1 select,
    TRef.nullary main_call1.cst (constant S_ .f32 0x7F800000#32),
    TRef.unary main_call1.cst main_call1.v3 (broadcastInDim S200000x8 ![] bcast_S_S200000x8),
    TRef.binary main_call1.call0.v1 main_call1.v3 main_call1.v4 (cmpf .oeq),
    TRef.nullary main_call1.cst_0 (constant S_ .f32 0x7F7FFFFF#32),
    TRef.unary main_call1.cst_0 main_call1.call1.v0 (broadcastInDim S200000x8 ![] bcast_S_S200000x8),
    TRef.ternary main_call1.v4 main_call1.call1.v0 main_call1.call0.v1 main_call1.call1.v1 select,
    TRef.nullary main_call1.cst_1 (constant S_ .f32 0xFF800000#32),
    TRef.unary main_call1.cst_1 main_call1.v6 (broadcastInDim S200000x8 ![] bcast_S_S200000x8),
    TRef.binary main_call1.call1.v1 main_call1.v6 main_call1.v7 (cmpf .oeq),
    TRef.nullary main_call1.cst_2 (constant S_ .f32 0xFF7FFFFF#32),
    TRef.unary main_call1.cst_2 main_call1.call2.v0 (broadcastInDim S200000x8 ![] bcast_S_S200000x8),
    TRef.ternary main_call1.v7 main_call1.call2.v0 main_call1.call1.v1 main_call1.call2.v1 select,
    unary main_v8 main_v9 (Host.exp : (⟨S200000x8, .f32⟩ : BufTy).Contents (Elt F) → (⟨S200000x8, .f32⟩ : BufTy).Contents (Elt F)),
    unary main_v5 main_v10 (broadcastInDim S200000x8 ![0, 1] bcast_S200000x1_S200000x8_0_1 : (⟨S200000x1, .f32⟩ : BufTy).Contents (Elt F) → (⟨S200000x8, .f32⟩ : BufTy).Contents (Elt F)),
    binary main_v9 main_v10 main_v11 (mulf : (⟨S200000x8, .f32⟩ : BufTy).Contents (Elt F) → (⟨S200000x8, .f32⟩ : BufTy).Contents (Elt F) → (⟨S200000x8, .f32⟩ : BufTy).Contents (Elt F)),
    binary main_arg1 main_v6 main_v12 (subf : (⟨S200000x8, .f32⟩ : BufTy).Contents (Elt F) → (⟨S200000x8, .f32⟩ : BufTy).Contents (Elt F) → (⟨S200000x8, .f32⟩ : BufTy).Contents (Elt F)),
    nullary main_cst_3 (constant S_ .f32 0xFF800000#32),
    TRef.binary (.of main_v12 : TRef sig ⟨S200000x8, .f32⟩) (.of main_v12 : TRef sig ⟨S200000x8, .f32⟩) main_call2.v0 (cmpf .une),
    TRef.unary (.of main_cst_3 : TRef sig ⟨S_, .f32⟩) main_call2.v1 id,
    TRef.unary main_call2.v1 main_call2.call0.v0 (broadcastInDim S200000x8 ![] bcast_S_S200000x8),
    TRef.ternary main_call2.v0 main_call2.call0.v0 (.of main_v12 : TRef sig ⟨S200000x8, .f32⟩) main_call2.call0.v1 select,
    TRef.nullary main_call2.cst (constant S_ .f32 0x7F800000#32),
    TRef.unary main_call2.cst main_call2.v3 (broadcastInDim S200000x8 ![] bcast_S_S200000x8),
    TRef.binary main_call2.call0.v1 main_call2.v3 main_call2.v4 (cmpf .oeq),
    TRef.nullary main_call2.cst_0 (constant S_ .f32 0x7F7FFFFF#32),
    TRef.unary main_call2.cst_0 main_call2.call1.v0 (broadcastInDim S200000x8 ![] bcast_S_S200000x8),
    TRef.ternary main_call2.v4 main_call2.call1.v0 main_call2.call0.v1 main_call2.call1.v1 select,
    TRef.nullary main_call2.cst_1 (constant S_ .f32 0xFF800000#32),
    TRef.unary main_call2.cst_1 main_call2.v6 (broadcastInDim S200000x8 ![] bcast_S_S200000x8),
    TRef.binary main_call2.call1.v1 main_call2.v6 main_call2.v7 (cmpf .oeq),
    TRef.nullary main_call2.cst_2 (constant S_ .f32 0xFF7FFFFF#32),
    TRef.unary main_call2.cst_2 main_call2.call2.v0 (broadcastInDim S200000x8 ![] bcast_S_S200000x8),
    TRef.ternary main_call2.v7 main_call2.call2.v0 main_call2.call1.v1 main_call2.call2.v1 select,
    unary main_v13 main_v14 (Host.exp : (⟨S200000x8, .f32⟩ : BufTy).Contents (Elt F) → (⟨S200000x8, .f32⟩ : BufTy).Contents (Elt F)),
    binary main_v11 main_v14 main_v15 (addf : (⟨S200000x8, .f32⟩ : BufTy).Contents (Elt F) → (⟨S200000x8, .f32⟩ : BufTy).Contents (Elt F) → (⟨S200000x8, .f32⟩ : BufTy).Contents (Elt F)),
    nullary main_cst_4 (constant S_ .f32 0x3F800000#32),
    unary main_cst_4 main_v16 (broadcastInDim S200000x8 ![] bcast_S_S200000x8 : (⟨S_, .f32⟩ : BufTy).Contents (Elt F) → (⟨S200000x8, .f32⟩ : BufTy).Contents (Elt F)),
    binary main_v15 main_v16 main_v17 (maximumf : (⟨S200000x8, .f32⟩ : BufTy).Contents (Elt F) → (⟨S200000x8, .f32⟩ : BufTy).Contents (Elt F) → (⟨S200000x8, .f32⟩ : BufTy).Contents (Elt F)),
    binary main_v11 main_v17 main_v18 (Host.divf : (⟨S200000x8, .f32⟩ : BufTy).Contents (Elt F) → (⟨S200000x8, .f32⟩ : BufTy).Contents (Elt F) → (⟨S200000x8, .f32⟩ : BufTy).Contents (Elt F)),
    unary main_v18 main_v19 (broadcastInDim S200000x8x1 ![0, 1] bcast_S200000x8_S200000x8x1_0_1 : (⟨S200000x8, .f32⟩ : BufTy).Contents (Elt F) → (⟨S200000x8x1, .f32⟩ : BufTy).Contents (Elt F)),
    binary main_v14 main_v17 main_v20 (Host.divf : (⟨S200000x8, .f32⟩ : BufTy).Contents (Elt F) → (⟨S200000x8, .f32⟩ : BufTy).Contents (Elt F) → (⟨S200000x8, .f32⟩ : BufTy).Contents (Elt F)),
    unary main_v20 main_v21 (broadcastInDim S200000x8x1 ![0, 1] bcast_S200000x8_S200000x8x1_0_1 : (⟨S200000x8, .f32⟩ : BufTy).Contents (Elt F) → (⟨S200000x8x1, .f32⟩ : BufTy).Contents (Elt F)),
    unary main_v19 main_v22 (broadcastInDim S200000x8x64 ![0, 1, 2] bcast_S200000x8x1_S200000x8x64_0_1_2 : (⟨S200000x8x1, .f32⟩ : BufTy).Contents (Elt F) → (⟨S200000x8x64, .f32⟩ : BufTy).Contents (Elt F)),
    binary main_arg2 main_v22 main_v23 (mulf : (⟨S200000x8x64, .f32⟩ : BufTy).Contents (Elt F) → (⟨S200000x8x64, .f32⟩ : BufTy).Contents (Elt F) → (⟨S200000x8x64, .f32⟩ : BufTy).Contents (Elt F)),
    unary main_v21 main_v24 (broadcastInDim S200000x8x64 ![0, 1, 2] bcast_S200000x8x1_S200000x8x64_0_1_2 : (⟨S200000x8x1, .f32⟩ : BufTy).Contents (Elt F) → (⟨S200000x8x64, .f32⟩ : BufTy).Contents (Elt F)),
    binary main_arg0 main_v24 main_v25 (mulf : (⟨S200000x8x64, .f32⟩ : BufTy).Contents (Elt F) → (⟨S200000x8x64, .f32⟩ : BufTy).Contents (Elt F) → (⟨S200000x8x64, .f32⟩ : BufTy).Contents (Elt F)),
    binary main_v23 main_v25 main_v26 (addf : (⟨S200000x8x64, .f32⟩ : BufTy).Contents (Elt F) → (⟨S200000x8x64, .f32⟩ : BufTy).Contents (Elt F) → (⟨S200000x8x64, .f32⟩ : BufTy).Contents (Elt F)) ]

set_option maxRecDepth 4096 in
set_option maxHeartbeats 4000000 in
/-- The program is that straight line: the helpers' definitions unfolded at their calls, and sequencing reassociated. -/
theorem main_eq (c : Dev nD) : main (F := F) c = seq ops := by
  simp only [main, fn_clip.body, fn_nan_to_num.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., binary_bufs_sub .., nullary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., binary_bufs_sub .., binary_bufs_sub .., nullary_bufs_sub .., binary_bufs_sub ..,
    unary_bufs_sub .., unary_bufs_sub .., ternary_bufs_sub .., nullary_bufs_sub .., unary_bufs_sub .., binary_bufs_sub ..,
    nullary_bufs_sub .., unary_bufs_sub .., ternary_bufs_sub .., nullary_bufs_sub .., unary_bufs_sub .., binary_bufs_sub ..,
    nullary_bufs_sub .., unary_bufs_sub .., ternary_bufs_sub .., unary_bufs_sub .., unary_bufs_sub .., binary_bufs_sub ..,
    binary_bufs_sub .., nullary_bufs_sub .., binary_bufs_sub .., unary_bufs_sub .., unary_bufs_sub .., ternary_bufs_sub ..,
    nullary_bufs_sub .., unary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    unary_bufs_sub .., binary_bufs_sub .., nullary_bufs_sub .., unary_bufs_sub .., binary_bufs_sub .., binary_bufs_sub ..,
    unary_bufs_sub .., binary_bufs_sub .., unary_bufs_sub .., unary_bufs_sub .., binary_bufs_sub .., unary_bufs_sub ..,
    binary_bufs_sub .., binary_bufs_sub ..⟩

set_option maxRecDepth 16384 in
set_option maxHeartbeats 1000000 in
/-- The fold at the result buffer is the term above of the valuation at the argument buffers. -/
theorem result_eq (V : Valuation τ sig (Elt F)) :
    after ops V (main_v26 : DevRef τ sig)
      = mergedArrays (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of the
    reference terminates with its result at `mergedArrays` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = mergedArrays (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v26).trans (result_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.EmaMerge.Reference

end
-- ==== Proof.RefCell.lean ====
/-
  The reference's result, one element at a time, on the extended reals.

  Every operation of the reference's term is elementwise except its broadcasts, and a broadcast reads its operand
  at the coordinates the operand has: the one scale at 0, a row's retention factor at the row (through the column
  [200000, 1] and its spread over the heads), a (row, head) quotient at (row, head) (through the trailing unit
  axis and its spread over the lanes), a constant everywhere.  On the extended reals the host's exponential and
  quotient are the kernel's, and a value never differs from itself whichever of the two comparisons asks, so at
  row n, head h and lane d the reference's result is the merge cell of the six argument values that (n, h, d) names:
  the reference computes `merged`.
-/
import proofs.«118670_j15152644620653_2_alg».proof.Proof.RefRun
import proofs.«118670_j15152644620653_2_alg».proof.Proof.Spec
import proofs.«118670_j15152644620653_2_alg».proof.Proof.LibInDimLayout
import Idealize.ShloMosaic.Lib.ValueIdx

noncomputable section

namespace Cert.EmaMerge.Reference

open Cert.ReferenceIdeal Idealize.ShloMosaic Idealize.ShloMosaic.ValueIdx Cert.EmaMerge

/-- A row's retention factor: the one scale is read at 0, the count at the row. -/
theorem retain_at {F : FTy → Type} [FloatOps F] (ag : (⟨S200000, .f32⟩ : BufTy).Contents (Elt F)) (iw : (⟨S1, .f32⟩ : BufTy).Contents (Elt F)) (n : Fin 200000) :
    retain ag iw (ix1 n) = keep (iw (ix1 (0 : Fin 1))) (ag (ix1 n)) := by
  unfold retain
  show FloatOps.minimumf _ (FloatOps.maximumf _ (FloatOps.subf _
    (FloatOps.mulf (broadcastInDim S200000 ![0] _ iw (ix1 n)) _))) = _
  rw [Cert.LibInDimLayout.inDim_1_a_apply]
  rfl

/-- A (row, head) array spread over the lanes reads (row, head) at every lane. -/
theorem overLanes_at {F : FTy → Type} [FloatOps F] (v : (⟨S200000x8, .f32⟩ : BufTy).Contents (Elt F)) (n : Fin 200000) (h : Fin 8) (d : Fin 64) :
    overLanes v (ix3 n h d) = v (ix2 n h) := by
  unfold overLanes
  rw [Cert.LibInDimLayout.inDim_ab1_abc_apply, Cert.LibInDimLayout.inDim_ab_ab1_apply]

/-- The history's weight at (n, h), on the extended reals. -/
theorem histWeights_at (ma hm : (⟨S200000x8, .f32⟩ : BufTy).Contents (Elt Ideal)) (ag : (⟨S200000, .f32⟩ : BufTy).Contents (Elt Ideal))
    (iw : (⟨S1, .f32⟩ : BufTy).Contents (Elt Ideal)) (n : Fin 200000) (h : Fin 8) :
    histWeights ma hm ag iw (ix2 n h) = wOld (F := Ideal) (ma (ix2 n h)) (hm (ix2 n h)) (ag (ix1 n)) (iw (ix1 (0 : Fin 1))) := by
  unfold histWeights
  show FloatOps.mulf _ (broadcastInDim S200000x8 ![0, 1] _ (broadcastInDim S200000x1 ![0] _ (retain ag iw)) (ix2 n h)) = _
  rw [Cert.LibInDimLayout.inDim_a1_ab_apply, Cert.LibInDimLayout.inDim_a_a1_apply, retain_at]
  rfl

/-- The new value's weight at (n, h), on the extended reals. -/
theorem newWeights_at (ma hm : (⟨S200000x8, .f32⟩ : BufTy).Contents (Elt Ideal)) (n : Fin 200000) (h : Fin 8) :
    newWeights ma hm (ix2 n h) = wNew (F := Ideal) (ma (ix2 n h)) (hm (ix2 n h)) := rfl

/-- The normaliser at (n, h), on the extended reals. -/
theorem totals_at (ma hm : (⟨S200000x8, .f32⟩ : BufTy).Contents (Elt Ideal)) (ag : (⟨S200000, .f32⟩ : BufTy).Contents (Elt Ideal))
    (iw : (⟨S1, .f32⟩ : BufTy).Contents (Elt Ideal)) (n : Fin 200000) (h : Fin 8) :
    totals ma hm ag iw (ix2 n h) = total (F := Ideal) (ma (ix2 n h)) (hm (ix2 n h)) (ag (ix1 n)) (iw (ix1 (0 : Fin 1))) := by
  unfold totals
  show FloatOps.maximumf (FloatOps.addf (histWeights ma hm ag iw (ix2 n h)) (newWeights ma hm (ix2 n h))) _ = _
  rw [histWeights_at, newWeights_at]
  rfl

/-- THE REFERENCE COMPUTES `merged`: its result term, on the extended reals, is the merge cell at every index. -/
theorem mergedArrays_eq (x : (⟨S200000x8x64, .f32⟩ : BufTy).Contents (Elt Ideal)) (ma : (⟨S200000x8, .f32⟩ : BufTy).Contents (Elt Ideal))
    (hx : (⟨S200000x8x64, .f32⟩ : BufTy).Contents (Elt Ideal)) (hm : (⟨S200000x8, .f32⟩ : BufTy).Contents (Elt Ideal))
    (ag : (⟨S200000, .f32⟩ : BufTy).Contents (Elt Ideal)) (iw : (⟨S1, .f32⟩ : BufTy).Contents (Elt Ideal)) :
    mergedArrays x ma hx hm ag iw = merged (F := Ideal) x ma hx hm ag iw := by
  funext i
  obtain ⟨n, h, d, rfl⟩ : ∃ (n : Fin 200000) (h : Fin 8) (d : Fin 64), i = ix3 n h d := ⟨i 0, i 1, i 2, eq_ix3 i⟩
  rw [merged_ix3]
  unfold mergedArrays
  show FloatOps.addf
      (FloatOps.mulf (hx (ix3 n h d)) (overLanes (Host.divf (histWeights ma hm ag iw) (totals ma hm ag iw)) (ix3 n h d)))
      (FloatOps.mulf (x (ix3 n h d)) (overLanes (Host.divf (newWeights ma hm) (totals ma hm ag iw)) (ix3 n h d))) = _
  rw [overLanes_at, overLanes_at]
  show FloatOps.addf
      (FloatOps.mulf (hx (ix3 n h d)) (FloatOps.hostDivf (histWeights ma hm ag iw (ix2 n h)) (totals ma hm ag iw (ix2 n h))))
      (FloatOps.mulf (x (ix3 n h d)) (FloatOps.hostDivf (newWeights ma hm (ix2 n h)) (totals ma hm ag iw (ix2 n h)))) = _
  rw [histWeights_at, newWeights_at, totals_at]
  rfl

end Cert.EmaMerge.Reference

end
-- ==== Proof.lean ====
/-
  The history merge with log-sum-exp stabilisation: the tiled kernel against the whole-array reference.

  Both programs compute, for every row n, head h and lane d,
      hx · (p / t) + x · (q / t),   p = exp(clean(hm − M)) · keep,  q = exp(clean(ma − M)),  t = max(p + q, 1),
  with M = max(ma, hm), keep = min(1, max(0, 1 − iw · ag)) and clean = nan_to_num with nan := −∞ (Proof/Spec.lean,
  `merged`), by the same operations in the same order; no algebraic law joins them and the precondition is never
  opened.  The kernel walks the rows in 200 blocks of 1000: the element its body stores at a block index is the
  merge cell of the staged elements there (Proof/KernelCell.lean), the staged blocks are the arrays' rows and the
  written blocks cover the result (Proof/KernelValue.lean), so its result array is `merged` of the arguments.  The
  reference is a straight line of 68 whole-array operations (Proof/RefRun.lean) whose result, read at an index on
  the extended reals, is the same cell (Proof/RefCell.lean).  The three frames are the two generated kernel frames
  and the reference's run with its result dropped; the idealisation rewrote nothing, so `preserves` asks nothing.
-/
import proofs.«118670_j15152644620653_2_alg».proof.Defs
import proofs.«118670_j15152644620653_2_alg».proof.Proof.Gen.Kernel
import proofs.«118670_j15152644620653_2_alg».proof.Proof.Gen.Kernel.Skeleton
import proofs.«118670_j15152644620653_2_alg».proof.Proof.Gen.Kernel.Launch
import proofs.«118670_j15152644620653_2_alg».proof.Proof.Gen.Kernel.Points
import proofs.«118670_j15152644620653_2_alg».proof.Proof.Gen.Kernel.Frame
import proofs.«118670_j15152644620653_2_alg».proof.Proof.Gen.KernelIdeal
import proofs.«118670_j15152644620653_2_alg».proof.Proof.Gen.KernelIdeal.Skeleton
import proofs.«118670_j15152644620653_2_alg».proof.Proof.Gen.KernelIdeal.Launch
import proofs.«118670_j15152644620653_2_alg».proof.Proof.Gen.KernelIdeal.Points
import proofs.«118670_j15152644620653_2_alg».proof.Proof.Gen.KernelIdeal.Frame
import proofs.«118670_j15152644620653_2_alg».proof.Proof.Gen.ReferenceIdeal
import proofs.«118670_j15152644620653_2_alg».proof.Proof.Gen.Pre_finite_inputs
import proofs.«118670_j15152644620653_2_alg».proof.Proof.KernelValue
import proofs.«118670_j15152644620653_2_alg».proof.Proof.RefRun
import proofs.«118670_j15152644620653_2_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame. -/
theorem frame_kernel : Cert.frame_Kernel := fun m ρ _ => Cert.Kernel.Gen.frame m ρ

/-- The idealised kernel runs and leaves its arguments as launched: the generated frame. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.EmaMerge.Reference.run (F := Ideal) m ρ)

/-- On the extended reals the kernel's result array ends at `merged` of its arguments, the reference's at its
    whole-array term of arguments that agree with them, and that term is `merged` index by index. -/
theorem algebraic : Cert.algebraic_KernelIdeal_ReferenceIdeal := by
  intro m ρ m' ρ' _ hagree
  refine ⟨_, Cert.EmaMerge.Kernel.run (F := Ideal) m ρ, ?_⟩
  refine (θ_run Cert.ReferenceIdeal.defs _ _).mono (fun _ h c => ⟨(h c).1.trans ?_, (h c).2⟩)
    (Cert.EmaMerge.Reference.run (F := Ideal) m' ρ')
  rw [Cert.EmaMerge.Reference.mergedArrays_eq]
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
